-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S800000 : Shape := ⟨1, ![800000]⟩
abbrev S512x256 : Shape := ⟨2, ![512, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x512 .f32) (main_arg1 : IVec S800000 32) (main_arg2 : IVec S800000 32) (main_arg3 : FVec F S512x256 .f32) (main_arg4 : FVec F S256 .f32) (main_arg5 : FVec F S256x128 .f32) (main_arg6 : FVec F S128 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x256 .f32 := Host.absf main_arg3
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg5
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg6 main_v13 main_v16
-- ==== Kernel.lean ====
abbrev S50000x512 : Shape := ⟨2, ![50000, 512]⟩
abbrev S800000 : Shape := ⟨1, ![800000]⟩
abbrev S512x256 : Shape := ⟨2, ![512, 256]⟩
abbrev S256 : Shape := ⟨1, ![256]⟩
abbrev S256x128 : Shape := ⟨2, ![256, 128]⟩
abbrev S128 : Shape := ⟨1, ![128]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S50000x256 : Shape := ⟨2, ![50000, 256]⟩
abbrev S2000x512 : Shape := ⟨2, ![2000, 512]⟩
abbrev S2000x1 : Shape := ⟨2, ![2000, 1]⟩
abbrev S2000x256 : Shape := ⟨2, ![2000, 256]⟩
abbrev S800000x256 : Shape := ⟨2, ![800000, 256]⟩
abbrev S1x256 : Shape := ⟨2, ![1, 256]⟩
abbrev S50000x128 : Shape := ⟨2, ![50000, 128]⟩
abbrev S2000x128 : Shape := ⟨2, ![2000, 128]⟩
abbrev S800000x128 : Shape := ⟨2, ![800000, 128]⟩
abbrev S1x128 : Shape := ⟨2, ![1, 128]⟩

abbrev nBuf : Space → Nat
  | .hbm => 92
  | .vmem => 14
  | .smem => 0
  | _ => 0

abbrev bufTy : (tb : Table) → Fin (tcTables nBuf tb) → BufTy
  | .hbm, ⟨0, _⟩ => ⟨S50000x512, .f32⟩
  | .hbm, ⟨1, _⟩ => ⟨S800000, .i32⟩
  | .hbm, ⟨2, _⟩ => ⟨S800000, .i32⟩
  | .hbm, ⟨3, _⟩ => ⟨S512x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S_, .f32⟩
  | .hbm, ⟨8, _⟩ => ⟨S800000, .f32⟩
  | .hbm, ⟨9, _⟩ => ⟨S_, .f32⟩
  | .hbm, ⟨10, _⟩ => ⟨S50000, .f32⟩
  | .hbm, ⟨11, _⟩ => ⟨S800000x1, .i32⟩
  | .hbm, ⟨12, _⟩ => ⟨S50000, .f32⟩
  | .hbm, ⟨13, _⟩ => ⟨S_, .f32⟩
  | .hbm, ⟨14, _⟩ => ⟨S50000, .f32⟩
  | .hbm, ⟨15, _⟩ => ⟨S800000x1, .i32⟩
  | .hbm, ⟨16, _⟩ => ⟨S50000, .f32⟩
  | .hbm, ⟨17, _⟩ => ⟨S_, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S50000, .f32⟩
  | .hbm, ⟨22, _⟩ => ⟨S_, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S50000x256, .f32⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S800000x256, .f32⟩
  | .hbm, ⟨38, _⟩ => ⟨S_, .f32⟩
  | .hbm, ⟨39, _⟩ => ⟨S50000x256, .f32⟩
  | .hbm, ⟨40, _⟩ => ⟨S800000x1, .i32⟩
  | .hbm, ⟨41, _⟩ => ⟨S50000x256, .f32⟩
  | .hbm, ⟨42, _⟩ => ⟨S50000x1, .f32⟩
  | .hbm, ⟨43, _⟩ => ⟨S50000x256, .f32⟩
  | .hbm, ⟨44, _⟩ => ⟨S50000x256, .f32⟩
  | .hbm, ⟨45, _⟩ => ⟨S1x256, .f32⟩
  | .hbm, ⟨46, _⟩ => ⟨S50000x256, .f32⟩
  | .hbm, ⟨47, _⟩ => ⟨S50000x256, .f32⟩
  | .hbm, ⟨48, _⟩ => ⟨S_, .f32⟩
  | .hbm, ⟨49, _⟩ => ⟨S50000x256, .f32⟩
  | .hbm, ⟨50, _⟩ => ⟨S50000x256, .f32⟩
  | .hbm, ⟨51, _⟩ => ⟨S_, .f32⟩
  | .hbm, ⟨52, _⟩ => ⟨S800000, .f32⟩
  | .hbm, ⟨53, _⟩ => ⟨S_, .f32⟩
  | .hbm, ⟨54, _⟩ => ⟨S50000, .f32⟩
  | .hbm, ⟨55, _⟩ => ⟨S800000x1, .i32⟩
  | .hbm, ⟨56, _⟩ => ⟨S50000, .f32⟩
  | .hbm, ⟨57, _⟩ => ⟨S_, .f32⟩
  | .hbm, ⟨58, _⟩ => ⟨S50000, .f32⟩
  | .hbm, ⟨59, _⟩ => ⟨S800000x1, .i32⟩
  | .hbm, ⟨60, _⟩ => ⟨S50000, .f32⟩
  | .hbm, ⟨61, _⟩ => ⟨S_, .f32⟩
  | .hbm, ⟨62, _⟩ => ⟨S_, .f32⟩
  | .hbm, ⟨63, _⟩ => ⟨S50000, .f32⟩
  | .hbm, ⟨64, _⟩ => ⟨S50000, .f32⟩
  | .hbm, ⟨65, _⟩ => ⟨S50000, .f32⟩
  | .hbm, ⟨66, _⟩ => ⟨S_, .f32⟩
  | .hbm, ⟨67, _⟩ => ⟨S_, .f32⟩
  | .hbm, ⟨68, _⟩ => ⟨S50000, .f32⟩
  | .hbm, ⟨69, _⟩ => ⟨S50000, .f32⟩
  | .hbm, ⟨70, _⟩ => ⟨S50000, .f32⟩
  | .hbm, ⟨71, _⟩ => ⟨S50000x1, .f32⟩
  | .hbm, ⟨72, _⟩ => ⟨S50000x128, .f32⟩
  | .hbm, ⟨73, _⟩ => ⟨S_, .i32⟩
  | .hbm, ⟨74, _⟩ => ⟨S800000, .i32⟩
  | .hbm, ⟨75, _⟩ => ⟨S800000, .i1⟩
  | .hbm, ⟨76, _⟩ => ⟨S_, .i32⟩
  | .hbm, ⟨77, _⟩ => ⟨S800000, .i32⟩
  | .hbm, ⟨78, _⟩ => ⟨S800000, .i32⟩
  | .hbm, ⟨79, _⟩ => ⟨S800000, .i32⟩
  | .hbm, ⟨80, _⟩ => ⟨S800000x1, .i32⟩
  | .hbm, ⟨81, _⟩ => ⟨S800000x128, .f32⟩
  | .hbm, ⟨82, _⟩ => ⟨S_, .f32⟩
  | .hbm, ⟨83, _⟩ => ⟨S50000x128, .f32⟩
  | .hbm, ⟨84, _⟩ => ⟨S800000x1, .i32⟩
  | .hbm, ⟨85, _⟩ => ⟨S50000x128, .f32⟩
  | .hbm, ⟨86, _⟩ => ⟨S50000x1, .f32⟩
  | .hbm, ⟨87, _⟩ => ⟨S50000x128, .f32⟩
  | .hbm, ⟨88, _⟩ => ⟨S50000x128, .f32⟩
  | .hbm, ⟨89, _⟩ => ⟨S1x128, .f32⟩
  | .hbm, ⟨90, _⟩ => ⟨S50000x128, .f32⟩
  | .hbm, ⟨91, _⟩ => ⟨S50000x128, .f32⟩
  | .local _ .vmem, ⟨0, _⟩ => ⟨S2000x512, .f32⟩
  | .local _ .vmem, ⟨1, _⟩ => ⟨S2000x512, .f32⟩
  | .local _ .vmem, ⟨2, _⟩ => ⟨S2000x1, .f32⟩
  | .local _ .vmem, ⟨3, _⟩ => ⟨S2000x1, .f32⟩
  | .local _ .vmem, ⟨4, _⟩ => ⟨S512x256, .f32⟩
  | .local _ .vmem, ⟨5, _⟩ => ⟨S2000x256, .f32⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S2000x1, .f32⟩
  | .local _ .vmem, ⟨10, _⟩ => ⟨S2000x1, .f32⟩
  | .local _ .vmem, ⟨11, _⟩ => ⟨S256x128, .f32⟩
  | .local _ .vmem, ⟨12, _⟩ => ⟨S2000x128, .f32⟩
  | .local _ .vmem, ⟨13, _⟩ => ⟨S2000x128, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_call0_v0 : Ref sig .tc := ⟨.hbm, 18, rfl⟩
abbrev main_call0_v1 : Ref sig .tc := ⟨.hbm, 19, rfl⟩
abbrev main_v7 : Ref sig .tc := ⟨.hbm, 20, rfl⟩
abbrev main_v8 : Ref sig .tc := ⟨.hbm, 21, rfl⟩
abbrev main_cst_3 : Ref sig .tc := ⟨.hbm, 22, rfl⟩
abbrev main_call1_v0 : Ref sig .tc := ⟨.hbm, 23, rfl⟩
abbrev main_call1_v1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_c : Ref sig .tc := ⟨.hbm, 29, rfl⟩
abbrev main_v13 : Ref sig .tc := ⟨.hbm, 30, rfl⟩
abbrev main_v14 : Ref sig .tc := ⟨.hbm, 31, rfl⟩
abbrev main_c_4 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_5 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_call2_cst : Ref sig .tc := ⟨.hbm, 48, rfl⟩
abbrev main_call2_v0 : Ref sig .tc := ⟨.hbm, 49, rfl⟩
abbrev main_v29 : Ref sig .tc := ⟨.hbm, 50, rfl⟩
abbrev main_cst_6 : Ref sig .tc := ⟨.hbm, 51, rfl⟩
abbrev main_v30 : Ref sig .tc := ⟨.hbm, 52, rfl⟩
abbrev main_cst_7 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_8 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_9 : Ref sig .tc := ⟨.hbm, 61, rfl⟩
abbrev main_call3_v0 : Ref sig .tc := ⟨.hbm, 62, rfl⟩
abbrev main_call3_v1 : Ref sig .tc := ⟨.hbm, 63, rfl⟩
abbrev main_v37 : Ref sig .tc := ⟨.hbm, 64, rfl⟩
abbrev main_v38 : Ref sig .tc := ⟨.hbm, 65, rfl⟩
abbrev main_cst_10 : Ref sig .tc := ⟨.hbm, 66, rfl⟩
abbrev main_call4_v0 : Ref sig .tc := ⟨.hbm, 67, rfl⟩
abbrev main_call4_v1 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_c_11 : Ref sig .tc := ⟨.hbm, 73, rfl⟩
abbrev main_v43 : Ref sig .tc := ⟨.hbm, 74, rfl⟩
abbrev main_v44 : Ref sig .tc := ⟨.hbm, 75, rfl⟩
abbrev main_c_12 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_cst_13 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  inb_S2000x512_S2000x512_0_0 : ∀ a, (![0, 0] : Fin 2 → Nat) a + S2000x512.size a ≤ S2000x512.size a
  h_S2000x512 : 0 < S2000x512.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x512 : S2000x1.Broadcasts S2000x512
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S2000x256_S2000x256_0_0 : ∀ a, (![0, 0] : Fin 2 → Nat) a + S2000x256.size a ≤ S2000x256.size a
  h_S2000x256 : 0 < S2000x256.numel
  bcast_S_S50000x256 : S_.BroadcastsInDim S50000x256 (![] : Fin 0 → Fin S50000x256.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  shapeCasts_S2000x256_S2000x256 : S2000x256.ShapeCasts S2000x256
  broadcasts_S2000x1_S2000x256 : S2000x1.Broadcasts S2000x256
  inb_S256x128_S256x128_0_0 : ∀ a, (![0, 0] : Fin 2 → Nat) a + S256x128.size a ≤ S256x128.size a
  h_S256x128 : 0 < S256x128.numel
  inb_S2000x128_S2000x128_0_0 : ∀ a, (![0, 0] : Fin 2 → Nat) a + S2000x128.size a ≤ S2000x128.size a
  h_S2000x128 : 0 < S2000x128.numel
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S800000x1_S800000_n_0_0_1_wf : ScatterDims.WF S50000 S800000x1 S800000 [] [0] [0] 1
  dot_S2000x512_S512x256_S2000x256_1_0_0_1_n_n_wf : DotDims.WF S2000x512 S512x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x128_S2000x128_1_0_0_1_n_n_wf : DotDims.WF S2000x256 S256x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .f32 = 32 ∨ (Rect.block (s := S50000x1) S2000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S512x256.size a
  hwx0_2 : ∀ i : grid0.Coords, EltTy.bits .f32 = 32 ∨ (Rect.block (s := S512x256) S512x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S50000x256.size a
  hwx0_3 : ∀ i : grid0.Coords, EltTy.bits .f32 = 32 ∨ (Rect.block (s := S50000x256) S2000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .f32 = 32 ∨ (Rect.block (s := S256x128) S256x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S50000x128.size a
  hwx1_3 : ∀ i : grid1.Coords, EltTy.bits .f32 = 32 ∨ (Rect.block (s := S50000x128) S2000x128.size (cc1_transform_3 i) (hinb1_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S512x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v29) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x512 : Shape := ⟨2, ![50000, 512]⟩
abbrev S800000 : Shape := ⟨1, ![800000]⟩
abbrev S512x256 : Shape := ⟨2, ![512, 256]⟩
abbrev S256 : Shape := ⟨1, ![256]⟩
abbrev S256x128 : Shape := ⟨2, ![256, 128]⟩
abbrev S128 : Shape := ⟨1, ![128]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S50000x256 : Shape := ⟨2, ![50000, 256]⟩
abbrev S800000x256 : Shape := ⟨2, ![800000, 256]⟩
abbrev S1x256 : Shape := ⟨2, ![1, 256]⟩
abbrev S50000x128 : Shape := ⟨2, ![50000, 128]⟩
abbrev S800000x128 : Shape := ⟨2, ![800000, 128]⟩
abbrev S1x128 : Shape := ⟨2, ![1, 128]⟩

abbrev nBuf : Space → Nat
  | .hbm => 96
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S800000, .i32⟩
  | .hbm, ⟨2, _⟩ => ⟨S800000, .i32⟩
  | .hbm, ⟨3, _⟩ => ⟨S512x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S_, .f32⟩
  | .hbm, ⟨8, _⟩ => ⟨S800000, .f32⟩
  | .hbm, ⟨9, _⟩ => ⟨S_, .f32⟩
  | .hbm, ⟨10, _⟩ => ⟨S50000, .f32⟩
  | .hbm, ⟨11, _⟩ => ⟨S800000x1, .i32⟩
  | .hbm, ⟨12, _⟩ => ⟨S50000, .f32⟩
  | .hbm, ⟨13, _⟩ => ⟨S_, .f32⟩
  | .hbm, ⟨14, _⟩ => ⟨S50000, .f32⟩
  | .hbm, ⟨15, _⟩ => ⟨S800000x1, .i32⟩
  | .hbm, ⟨16, _⟩ => ⟨S50000, .f32⟩
  | .hbm, ⟨17, _⟩ => ⟨S_, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S50000, .f32⟩
  | .hbm, ⟨22, _⟩ => ⟨S_, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S50000x512, .f32⟩
  | .hbm, ⟨29, _⟩ => ⟨S50000x512, .f32⟩
  | .hbm, ⟨30, _⟩ => ⟨S50000x256, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000x256, .f32⟩
  | .hbm, ⟨40, _⟩ => ⟨S_, .f32⟩
  | .hbm, ⟨41, _⟩ => ⟨S50000x256, .f32⟩
  | .hbm, ⟨42, _⟩ => ⟨S800000x1, .i32⟩
  | .hbm, ⟨43, _⟩ => ⟨S50000x256, .f32⟩
  | .hbm, ⟨44, _⟩ => ⟨S50000x1, .f32⟩
  | .hbm, ⟨45, _⟩ => ⟨S50000x256, .f32⟩
  | .hbm, ⟨46, _⟩ => ⟨S50000x256, .f32⟩
  | .hbm, ⟨47, _⟩ => ⟨S1x256, .f32⟩
  | .hbm, ⟨48, _⟩ => ⟨S50000x256, .f32⟩
  | .hbm, ⟨49, _⟩ => ⟨S50000x256, .f32⟩
  | .hbm, ⟨50, _⟩ => ⟨S_, .f32⟩
  | .hbm, ⟨51, _⟩ => ⟨S50000x256, .f32⟩
  | .hbm, ⟨52, _⟩ => ⟨S50000x256, .f32⟩
  | .hbm, ⟨53, _⟩ => ⟨S_, .f32⟩
  | .hbm, ⟨54, _⟩ => ⟨S800000, .f32⟩
  | .hbm, ⟨55, _⟩ => ⟨S_, .f32⟩
  | .hbm, ⟨56, _⟩ => ⟨S50000, .f32⟩
  | .hbm, ⟨57, _⟩ => ⟨S800000x1, .i32⟩
  | .hbm, ⟨58, _⟩ => ⟨S50000, .f32⟩
  | .hbm, ⟨59, _⟩ => ⟨S_, .f32⟩
  | .hbm, ⟨60, _⟩ => ⟨S50000, .f32⟩
  | .hbm, ⟨61, _⟩ => ⟨S800000x1, .i32⟩
  | .hbm, ⟨62, _⟩ => ⟨S50000, .f32⟩
  | .hbm, ⟨63, _⟩ => ⟨S_, .f32⟩
  | .hbm, ⟨64, _⟩ => ⟨S_, .f32⟩
  | .hbm, ⟨65, _⟩ => ⟨S50000, .f32⟩
  | .hbm, ⟨66, _⟩ => ⟨S50000, .f32⟩
  | .hbm, ⟨67, _⟩ => ⟨S50000, .f32⟩
  | .hbm, ⟨68, _⟩ => ⟨S_, .f32⟩
  | .hbm, ⟨69, _⟩ => ⟨S_, .f32⟩
  | .hbm, ⟨70, _⟩ => ⟨S50000, .f32⟩
  | .hbm, ⟨71, _⟩ => ⟨S50000, .f32⟩
  | .hbm, ⟨72, _⟩ => ⟨S50000, .f32⟩
  | .hbm, ⟨73, _⟩ => ⟨S50000x1, .f32⟩
  | .hbm, ⟨74, _⟩ => ⟨S50000x256, .f32⟩
  | .hbm, ⟨75, _⟩ => ⟨S50000x256, .f32⟩
  | .hbm, ⟨76, _⟩ => ⟨S50000x128, .f32⟩
  | .hbm, ⟨77, _⟩ => ⟨S_, .i32⟩
  | .hbm, ⟨78, _⟩ => ⟨S800000, .i32⟩
  | .hbm, ⟨79, _⟩ => ⟨S800000, .i1⟩
  | .hbm, ⟨80, _⟩ => ⟨S_, .i32⟩
  | .hbm, ⟨81, _⟩ => ⟨S800000, .i32⟩
  | .hbm, ⟨82, _⟩ => ⟨S800000, .i32⟩
  | .hbm, ⟨83, _⟩ => ⟨S800000, .i32⟩
  | .hbm, ⟨84, _⟩ => ⟨S800000x1, .i32⟩
  | .hbm, ⟨85, _⟩ => ⟨S800000x128, .f32⟩
  | .hbm, ⟨86, _⟩ => ⟨S_, .f32⟩
  | .hbm, ⟨87, _⟩ => ⟨S50000x128, .f32⟩
  | .hbm, ⟨88, _⟩ => ⟨S800000x1, .i32⟩
  | .hbm, ⟨89, _⟩ => ⟨S50000x128, .f32⟩
  | .hbm, ⟨90, _⟩ => ⟨S50000x1, .f32⟩
  | .hbm, ⟨91, _⟩ => ⟨S50000x128, .f32⟩
  | .hbm, ⟨92, _⟩ => ⟨S50000x128, .f32⟩
  | .hbm, ⟨93, _⟩ => ⟨S1x128, .f32⟩
  | .hbm, ⟨94, _⟩ => ⟨S50000x128, .f32⟩
  | .hbm, ⟨95, _⟩ => ⟨S50000x128, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_call0_v0 : Ref sig .tc := ⟨.hbm, 18, rfl⟩
abbrev main_call0_v1 : Ref sig .tc := ⟨.hbm, 19, rfl⟩
abbrev main_v7 : Ref sig .tc := ⟨.hbm, 20, rfl⟩
abbrev main_v8 : Ref sig .tc := ⟨.hbm, 21, rfl⟩
abbrev main_cst_3 : Ref sig .tc := ⟨.hbm, 22, rfl⟩
abbrev main_call1_v0 : Ref sig .tc := ⟨.hbm, 23, rfl⟩
abbrev main_call1_v1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_4 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_5 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_call2_cst : Ref sig .tc := ⟨.hbm, 50, rfl⟩
abbrev main_call2_v0 : Ref sig .tc := ⟨.hbm, 51, rfl⟩
abbrev main_v31 : Ref sig .tc := ⟨.hbm, 52, rfl⟩
abbrev main_cst_6 : Ref sig .tc := ⟨.hbm, 53, rfl⟩
abbrev main_v32 : Ref sig .tc := ⟨.hbm, 54, rfl⟩
abbrev main_cst_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_8 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_9 : Ref sig .tc := ⟨.hbm, 63, rfl⟩
abbrev main_call3_v0 : Ref sig .tc := ⟨.hbm, 64, rfl⟩
abbrev main_call3_v1 : Ref sig .tc := ⟨.hbm, 65, rfl⟩
abbrev main_v39 : Ref sig .tc := ⟨.hbm, 66, rfl⟩
abbrev main_v40 : Ref sig .tc := ⟨.hbm, 67, rfl⟩
abbrev main_cst_10 : Ref sig .tc := ⟨.hbm, 68, rfl⟩
abbrev main_call4_v0 : Ref sig .tc := ⟨.hbm, 69, rfl⟩
abbrev main_call4_v1 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_c_11 : Ref sig .tc := ⟨.hbm, 77, rfl⟩
abbrev main_v47 : Ref sig .tc := ⟨.hbm, 78, rfl⟩
abbrev main_v48 : Ref sig .tc := ⟨.hbm, 79, rfl⟩
abbrev main_c_12 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_cst_13 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x512_0_1 : S50000x1.BroadcastsInDim S50000x512 (![0, 1] : Fin 2 → Fin S50000x512.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S800000x1_S800000_n_0_0_1_wf : ScatterDims.WF S50000 S800000x1 S800000 [] [0] [0] 1
  dot_S50000x512_S512x256_S50000x256_1_0_0_1_n_n_wf : DotDims.WF S50000x512 S512x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x128_S50000x128_1_0_0_1_n_n_wf : DotDims.WF S50000x256 S256x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.KernelRun.lean ====
/-
  The idealized kernel's whole run, with every buffer named. The program is fifteen segments: stretches of host
  operations and two kernel regions. Each segment takes the TensorCore's unscoped buffers from one valuation to the
  next, so after the last segment every unscoped buffer holds the last valuation of that chain. The frame statement
  keeps only the seven argument buffers of this fact; here all of them are kept, the result buffer among them.
-/
import proofs.«168120_j55946243998129_1_alg».proof.Proof.Gen.KernelIdeal.Frame

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, and every unscoped buffer of every core
    ends at the last valuation of the segment chain. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W15 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h => h)

end Cert.KernelIdeal.RunValue

end
-- ==== Proof.LibDotIx2.lean ====
/-
  A plain matrix product read at a row and a column, for operands of any float formats. For dimension numbers that
  contract the left operand's second axis with the right operand's first and batch nothing — stated by the four
  coordinate facts of the operand indices — the contraction at (r, c) is the finite sum over k of
  left (r, k) * right (k, c). Two readings rest on it: a matrix-unit product into the zero accumulator, and the
  host's dot_general; at the extended reals both are that sum, whatever formats the operands were rounded to on the way.
-/
import Idealize.ShloMosaic.PureOps.Ideal.Laws
import Idealize.ShloMosaic.Lib.ValueIdx

noncomputable section

open scoped BigOperators

namespace Idealize.ShloMosaic.ValueIdx

open Idealize.ShloMosaic

/-- The facts that say a dot's dimension numbers are those of a plain M x K by K x N product. -/
structure PlainDot {M K N : ℕ} (d : DotDims (⟨2, ![M, K]⟩ : Shape) (⟨2, ![K, N]⟩ : Shape) (⟨2, ![M, N]⟩ : Shape)) : Prop where
  rank : d.contr.rank = 1
  size : d.contr.size ⟨0, by omega⟩ = K
  l0 : ∀ (j : (⟨2, ![M, N]⟩ : Shape).Idx) (q : d.contr.Idx), (d.lhsIdx j q 0).val = (j 0).val
  l1 : ∀ (j : (⟨2, ![M, N]⟩ : Shape).Idx) (q : d.contr.Idx), (d.lhsIdx j q 1).val = (q ⟨0, by omega⟩).val
  r0 : ∀ (j : (⟨2, ![M, N]⟩ : Shape).Idx) (q : d.contr.Idx), (d.rhsIdx j q 0).val = (q ⟨0, by omega⟩).val
  r1 : ∀ (j : (⟨2, ![M, N]⟩ : Shape).Idx) (q : d.contr.Idx), (d.rhsIdx j q 1).val = (j 1).val

/-- The contraction of a plain product at (r, c), re-indexed by the inner position k. -/
theorem contraction_ix2 {M K N : ℕ} {d : DotDims (⟨2, ![M, K]⟩ : Shape) (⟨2, ![K, N]⟩ : Shape) (⟨2, ![M, N]⟩ : Shape)}
    (hd : PlainDot d) (lhs : (⟨2, ![M, K]⟩ : Shape).Idx → EReal) (rhs : (⟨2, ![K, N]⟩ : Shape).Idx → EReal) (r : Fin M) (c : Fin N) :
    (∑ q : d.contr.Idx, lhs (d.lhsIdx (ix2 r c) q) * rhs (d.rhsIdx (ix2 r c) q)) = ∑ k : Fin K, lhs (ix2 r k) * rhs (ix2 k c) := by
  rw [← Equiv.sum_comp (contrEquiv1 d K hd.rank hd.size).symm]
  refine Finset.sum_congr rfl fun k _ => ?_
  have hk := contrEquiv1_symm_val d K hd.rank hd.size k
  have el : d.lhsIdx (ix2 r c) ((contrEquiv1 d K hd.rank hd.size).symm k) = ix2 r k := funext fun a => Fin.ext (by
    match a with
    | ⟨0, _⟩ => exact hd.l0 _ _
    | ⟨1, _⟩ => exact (hd.l1 _ _).trans hk)
  have er : d.rhsIdx (ix2 r c) ((contrEquiv1 d K hd.rank hd.size).symm k) = ix2 k c := funext fun a => Fin.ext (by
    match a with
    | ⟨0, _⟩ => exact (hd.r0 _ _).trans hk
    | ⟨1, _⟩ => exact hd.r1 _ _)
  rw [el, er]

/-- A matrix-unit product of an M x K by a K x N array into zeros, at (r, c): the sum over the K inner positions. -/
theorem matmul_zero_ix2_any {M K N : ℕ} {φ₁ φ₂ : FTy} {d : DotDims (⟨2, ![M, K]⟩ : Shape) (⟨2, ![K, N]⟩ : Shape) (⟨2, ![M, N]⟩ : Shape)}
    (hd : PlainDot d) (prec : Option ContractPrecision)
    (lhs : FVec Ideal (⟨2, ![M, K]⟩ : Shape) φ₁) (rhs : FVec Ideal (⟨2, ![K, N]⟩ : Shape) φ₂) (r : Fin M) (c : Fin N) :
    FloatOps.matmul d prec lhs rhs (constant (⟨2, ![M, N]⟩ : Shape) .f32 0x00000000#32) (ix2 r c)
      = ∑ k : Fin K, (lhs (ix2 r k) : EReal) * (rhs (ix2 k c) : EReal) := by
  rw [Ideal.matmul_constant_zero_apply]
  exact contraction_ix2 hd lhs rhs r c

/-- The host's dot_general of an M x K by a K x N array, at (r, c): the same sum. -/
theorem dotGeneral_ix2_any {M K N : ℕ} {φ₁ φ₂ : FTy} {d : DotDims (⟨2, ![M, K]⟩ : Shape) (⟨2, ![K, N]⟩ : Shape) (⟨2, ![M, N]⟩ : Shape)}
    (hd : PlainDot d) (prec : Option ContractPrecision) (sched : HostSchedule)
    (lhs : FVec Ideal (⟨2, ![M, K]⟩ : Shape) φ₁) (rhs : FVec Ideal (⟨2, ![K, N]⟩ : Shape) φ₂) (r : Fin M) (c : Fin N) :
    FloatOps.dotGeneral d prec sched lhs rhs (ix2 r c)
      = ∑ k : Fin K, (lhs (ix2 r k) : EReal) * (rhs (ix2 k c) : EReal) := by
  rw [Ideal.dotGeneral_apply]
  exact contraction_ix2 hd lhs rhs r c

end Idealize.ShloMosaic.ValueIdx

end
-- ==== Proof.LibKeepdims.lean ====
/-
  Two layout operations of a row reduction kept as a column (`keepdims=True`), read at an index given by coordinates:
  a vector of length `a` recast as an `a × 1` column, and an `a × 1` column broadcast across `b` columns.
-/
import Idealize.ShloMosaic.Lib.Pipeline.Value
import Idealize.ShloMosaic.Lib.ValueIdx
import Idealize.ShloMosaic.Lib.ValueLayout

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.BodyValue.lean ====
/-
  What one grid point of each kernel computes, read at an entry. Both bodies are the same arithmetic at different
  widths: the block of rows is scaled by its column block, both operands are rounded to a narrower format (at the
  extended reals a change of format is the identity) and the matrix unit multiplies them into a zero accumulator. So the
  stored value at (p, q) is the sum over k of (x (p,k) * s (p,0)) * w (k,q).
-/
import proofs.«168120_j55946243998129_1_alg».proof.Proof.Gen.KernelIdeal.Skeleton
import proofs.«168120_j55946243998129_1_alg».proof.Proof.LibDotIx2
import proofs.«168120_j55946243998129_1_alg».proof.Proof.LibKeepdims

noncomputable section

open scoped BigOperators

namespace Cert.KernelIdeal.BodyValue

open Cert.KernelIdeal Cert.KernelIdeal.Gen Idealize.ShloMosaic Idealize.ShloMosaic.ValueIdx

/-- The matrix unit's dimension numbers in region 0 are those of a plain product: the left operand's second axis is
    contracted with the right operand's first, nothing is batched. -/
theorem plain0 : PlainDot dot_S2000x512_S512x256_S2000x256_1_0_0_1_n_n where
  rank := rfl
  size := rfl
  l0 := fun j q => by
    unfold DotDims.lhsIdx
    rw [dif_neg (show ¬(0 : Fin S2000x512.rank) ∈ dot_S2000x512_S512x256_S2000x256_1_0_0_1_n_n.lhsBatch by decide), dif_pos (show (0 : Fin S2000x512.rank) ∈ dot_S2000x512_S512x256_S2000x256_1_0_0_1_n_n.lhsNonContracting by decide)]
    rfl
  l1 := fun j q => dot_S2000x512_S512x256_S2000x256_1_0_0_1_n_n.lhsIdx_val_of_single rfl j q
  r0 := fun j q => dot_S2000x512_S512x256_S2000x256_1_0_0_1_n_n.rhsIdx_val_of_single rfl j q
  r1 := fun j q => by
    unfold DotDims.rhsIdx
    rw [dif_neg (show ¬(1 : Fin S512x256.rank) ∈ dot_S2000x512_S512x256_S2000x256_1_0_0_1_n_n.rhsBatch by decide), dif_pos (show (1 : Fin S512x256.rank) ∈ dot_S2000x512_S512x256_S2000x256_1_0_0_1_n_n.rhsNonContracting by decide)]
    rfl

/-- The matrix unit's dimension numbers in region 1 are those of a plain product: the left operand's second axis is
    contracted with the right operand's first, nothing is batched. -/
theorem plain1 : PlainDot dot_S2000x256_S256x128_S2000x128_1_0_0_1_n_n where
  rank := rfl
  size := rfl
  l0 := fun j q => by
    unfold DotDims.lhsIdx
    rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
    rfl
  l1 := fun j q => dot_S2000x256_S256x128_S2000x128_1_0_0_1_n_n.lhsIdx_val_of_single rfl j q
  r0 := fun j q => dot_S2000x256_S256x128_S2000x128_1_0_0_1_n_n.rhsIdx_val_of_single rfl j q
  r1 := fun j q => by
    unfold DotDims.rhsIdx
    rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
    rfl

/-- The first layer's body at (p, q). -/
theorem pay0_ix2 (x0 : Vec Ideal S2000x512 .f32) (x1 : Vec Ideal S2000x1 .f32) (x2 : Vec Ideal S512x256 .f32)
    (p : Fin 2000) (q : Fin 256) :
    k0_pay1 x0 x1 x2 (ix2 p q) = ∑ k : Fin 512, (x0 (ix2 p k) * x1 (ix2 p (0 : Fin 1))) * x2 (ix2 k q) := by
  unfold k0_pay1
  refine (matmul_zero_ix2_any plain0 none _ _ p q).trans ?_
  refine Finset.sum_congr rfl fun k _ => ?_
  rw [truncf_apply, truncf_apply, mulf_apply, broadcastTo_a1_ab_apply, shapeCast_self]

/-- The second layer's body at (p, q). -/
theorem pay1_ix2 (x0 : Vec Ideal S2000x256 .f32) (x1 : Vec Ideal S2000x1 .f32) (x2 : Vec Ideal S256x128 .f32)
    (p : Fin 2000) (q : Fin 128) :
    k1_pay1 x0 x1 x2 (ix2 p q) = ∑ k : Fin 256, (x0 (ix2 p k) * x1 (ix2 p (0 : Fin 1))) * x2 (ix2 k q) := by
  unfold k1_pay1
  refine (matmul_zero_ix2_any plain1 none _ _ p q).trans ?_
  refine Finset.sum_congr rfl fun k _ => ?_
  rw [truncf_apply, truncf_apply, mulf_apply, broadcastTo_a1_ab_apply, shapeCast_self, shapeCast_self]

end Cert.KernelIdeal.BodyValue

end
-- ==== Proof.LibBroadcastInDim.lean ====
/-
  The host's broadcast_in_dim in the five small forms a row-wise normalisation uses, each read at an index given by
  coordinates: a scalar to any shape; a vector of length a to an a x 1 column; an a x 1 column to a x b; a vector of
  length b to a 1 x b row; a 1 x b row to a x b. In each the result's entry is the operand's entry at the coordinates
  the broadcast keeps.
-/
import Idealize.ShloMosaic.Lib.Pipeline.Value
import Idealize.ShloMosaic.Lib.ValueIdx

namespace Idealize.ShloMosaic.ValueIdx

open Idealize.ShloMosaic

variable {α : Type}

/-- A scalar broadcast to any shape reads the scalar everywhere. -/
theorem broadcastInDim_scalar_apply {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 fun a => a.elim0

/-- A vector of length a placed as an a x 1 column reads, at (r, u), the vector at r. -/
theorem broadcastInDim_vec_col_apply {a : ℕ} (h : (⟨1, ![a]⟩ : Shape).BroadcastsInDim (⟨2, ![a, 1]⟩ : Shape) ![0])
    (x : (⟨1, ![a]⟩ : Shape).Idx → α) (r : Fin a) (u : Fin 1) :
    broadcastInDim (⟨2, ![a, 1]⟩ : Shape) ![0] h x (ix2 r u) = x (ix1 r) := by
  refine broadcastInDim_apply ![0] h x (ix2 r u) (ix1 r) fun ax => ?_
  match ax with
  | ⟨0, _⟩ =>
    show r.val = if a = 1 then 0 else r.val
    split
    · have := r.isLt; omega
    · rfl

/-- An a x 1 column broadcast to a x b reads, at (r, c), the column at (r, 0). -/
theorem broadcastInDim_col_mat_apply {a b : ℕ} (h : (⟨2, ![a, 1]⟩ : Shape).BroadcastsInDim (⟨2, ![a, b]⟩ : Shape) ![0, 1])
    (x : (⟨2, ![a, 1]⟩ : Shape).Idx → α) (r : Fin a) (c : Fin b) :
    broadcastInDim (⟨2, ![a, b]⟩ : Shape) ![0, 1] h x (ix2 r c) = x (ix2 r (0 : Fin 1)) := by
  refine broadcastInDim_apply ![0, 1] h x (ix2 r c) (ix2 r (0 : Fin 1)) fun ax => ?_
  match ax with
  | ⟨0, _⟩ =>
    show r.val = if a = 1 then 0 else r.val
    split
    · have := r.isLt; omega
    · rfl
  | ⟨1, _⟩ => rfl

/-- A vector of length b placed as a 1 x b row reads, at (u, c), the vector at c. -/
theorem broadcastInDim_vec_row_apply {b : ℕ} (h : (⟨1, ![b]⟩ : Shape).BroadcastsInDim (⟨2, ![1, b]⟩ : Shape) ![1])
    (x : (⟨1, ![b]⟩ : Shape).Idx → α) (u : Fin 1) (c : Fin b) :
    broadcastInDim (⟨2, ![1, b]⟩ : Shape) ![1] h x (ix2 u c) = x (ix1 c) := by
  refine broadcastInDim_apply ![1] h x (ix2 u c) (ix1 c) fun ax => ?_
  match ax with
  | ⟨0, _⟩ =>
    show c.val = if b = 1 then 0 else c.val
    split
    · have := c.isLt; omega
    · rfl

/-- A 1 x b row broadcast to a x b reads, at (r, c), the row at (0, c). -/
theorem broadcastInDim_row_mat_apply {a b : ℕ} (h : (⟨2, ![1, b]⟩ : Shape).BroadcastsInDim (⟨2, ![a, b]⟩ : Shape) ![0, 1])
    (x : (⟨2, ![1, b]⟩ : Shape).Idx → α) (r : Fin a) (c : Fin b) :
    broadcastInDim (⟨2, ![a, b]⟩ : Shape) ![0, 1] h x (ix2 r c) = x (ix2 (0 : Fin 1) c) := by
  refine broadcastInDim_apply ![0, 1] h x (ix2 r c) (ix2 (0 : Fin 1) c) fun ax => ?_
  match ax with
  | ⟨0, _⟩ => rfl
  | ⟨1, _⟩ =>
    show c.val = if b = 1 then 0 else c.val
    split
    · have := c.isLt; omega
    · rfl

end Idealize.ShloMosaic.ValueIdx
-- ==== Proof.ScaledProduct.lean ====
/-
  The dense projection of one graph-convolution layer, as one function of its three operands: the rows of an M x K
  array are scaled, row r by the r-th entry of an M x 1 column, and the scaled array is multiplied by a K x N array.
  At (r, c) that is the sum over k of (x (r,k) * s (r,0)) * w (k,c). The host spells the same number as a dot_general
  of the product of x with a vector of length M laid out as a column and broadcast across the K columns; over the
  extended reals the two spellings are the same sum term by term, so no law of arithmetic is needed to join them.
-/
import proofs.«168120_j55946243998129_1_alg».proof.Proof.LibDotIx2
import proofs.«168120_j55946243998129_1_alg».proof.Proof.LibKeepdims
import proofs.«168120_j55946243998129_1_alg».proof.Proof.LibBroadcastInDim

noncomputable section

open scoped BigOperators

namespace Cert.GcnLayer

open Idealize.ShloMosaic Idealize.ShloMosaic.ValueIdx

/-- Rows of `x` scaled by the column `s`, then multiplied by `w`. -/
def scaledProduct {M K N : ℕ} (x : (⟨2, ![M, K]⟩ : Shape).Idx → EReal) (s : (⟨2, ![M, 1]⟩ : Shape).Idx → EReal)
    (w : (⟨2, ![K, N]⟩ : Shape).Idx → EReal) : (⟨2, ![M, N]⟩ : Shape).Idx → EReal :=
  fun j => ∑ k : Fin K, (x (ix2 (j 0) k) * s (ix2 (j 0) (0 : Fin 1))) * w (ix2 k (j 1))

theorem scaledProduct_ix2 {M K N : ℕ} (x : (⟨2, ![M, K]⟩ : Shape).Idx → EReal) (s : (⟨2, ![M, 1]⟩ : Shape).Idx → EReal)
    (w : (⟨2, ![K, N]⟩ : Shape).Idx → EReal) (r : Fin M) (c : Fin N) :
    scaledProduct x s w (ix2 r c) = ∑ k : Fin K, (x (ix2 r k) * s (ix2 r (0 : Fin 1))) * w (ix2 k c) := rfl

/-- The host's spelling: the dot_general of `x` times the vector `n` (placed as a column, broadcast along the rows) with
    `w` is the scaled product whose column is `n` recast as M x 1. -/
theorem hostDot_eq_scaledProduct {M K N : ℕ}
    {d : DotDims (⟨2, ![M, K]⟩ : Shape) (⟨2, ![K, N]⟩ : Shape) (⟨2, ![M, N]⟩ : Shape)} (hd : PlainDot d)
    (h1 : (⟨1, ![M]⟩ : Shape).BroadcastsInDim (⟨2, ![M, 1]⟩ : Shape) ![0])
    (h2 : (⟨2, ![M, 1]⟩ : Shape).BroadcastsInDim (⟨2, ![M, K]⟩ : Shape) ![0, 1])
    (hc : (⟨1, ![M]⟩ : Shape).ShapeCasts (⟨2, ![M, 1]⟩ : Shape))
    (x : FVec Ideal (⟨2, ![M, K]⟩ : Shape) .f32) (n : FVec Ideal (⟨1, ![M]⟩ : Shape) .f32)
    (w : FVec Ideal (⟨2, ![K, N]⟩ : Shape) .f32) :
    Host.dotGeneral d none (mulf x (broadcastInDim (⟨2, ![M, K]⟩ : Shape) ![0, 1] h2 (broadcastInDim (⟨2, ![M, 1]⟩ : Shape) ![0] h1 n))) w
      = scaledProduct x (shapeCast (⟨2, ![M, 1]⟩ : Shape) n hc) w := by
  funext j
  obtain ⟨r, c, rfl⟩ : ∃ (r : Fin M) (c : Fin N), j = ix2 r c := ⟨j 0, j 1, eq_ix2 j⟩
  rw [scaledProduct_ix2]
  refine (dotGeneral_ix2_any hd none _ _ _ r c).trans ?_
  refine Finset.sum_congr rfl fun k _ => ?_
  rw [mulf_apply, broadcastInDim_col_mat_apply, broadcastInDim_vec_col_apply, shapeCast_a_a1_apply]

end Cert.GcnLayer

end
-- ==== Proof.Region0.lean ====
/-
  The first kernel region, read as a value. The grid has 25 points; point t works on rows 2000 t .. 2000 t + 1999:
  it fetches that block of rows of the left array and of the scale column, the whole right array, and writes that block
  of rows of the output. So what point t writes back is block t of ONE function of the three arrays as the region finds
  them — the rows scaled by the column and multiplied by the right array — and since the 25 row blocks cover all 50000
  rows, the output array ends holding that function.
-/
import proofs.«168120_j55946243998129_1_alg».proof.Proof.Gen.KernelIdeal.Frame
import proofs.«168120_j55946243998129_1_alg».proof.Proof.BodyValue
import proofs.«168120_j55946243998129_1_alg».proof.Proof.ScaledProduct
import Idealize.ShloMosaic.Lib.Pipeline.Value

set_option maxRecDepth 16384

noncomputable section

open scoped BigOperators

namespace Cert.KernelIdeal.Region0

open Cert.KernelIdeal Cert.KernelIdeal.Gen Cert.GcnLayer
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem offset_zero : (![0, 0] : Fin 2 → Nat) = fun _ => 0 := funext fun a => by fin_cases a <;> rfl

/-- Where each window's block sits at point t: the two row-blocked inputs move with the output's block of rows, which
    is block t; every block starts at column 0; the right array is fetched whole. -/
theorem block_positions : ∀ t : Fin cfg0.N,
    win0_0.index t (0 : Fin 2) = win0_3.index t (0 : Fin 2) ∧ win0_0.index t (1 : Fin 2) = 0
    ∧ win0_1.index t (0 : Fin 2) = win0_3.index t (0 : Fin 2) ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- One point, over plain blocks: if the left block is rows T*2000.. of A0, the column block rows T*2000.. of A1, and the
    right block all of A2, then the body's value at y is the scaled product of the arrays at row T*2000 + y 0, column y 1. -/
theorem point_value (x0 : Vec Ideal S2000x512 .f32) (x1 : Vec Ideal S2000x1 .f32) (x2 : Vec Ideal S512x256 .f32)
    (A0 : S50000x512.Idx → EReal) (A1 : S50000x1.Idx → EReal) (A2 : S512x256.Idx → EReal) (T : ℕ)
    (h0 : ∀ (p : Fin 2000) (k : Fin 512) (r : Fin 50000), r.val = T * 2000 + p.val → x0 (ix2 p k) = A0 (ix2 r k))
    (h1 : ∀ (p : Fin 2000) (r : Fin 50000), r.val = T * 2000 + p.val → x1 (ix2 p (0 : Fin 1)) = A1 (ix2 r (0 : Fin 1)))
    (h2 : ∀ (k : Fin 512) (q : Fin 256), x2 (ix2 k q) = A2 (ix2 k q))
    (p : Fin 2000) (q : Fin 256) (r : Fin 50000) (hr : r.val = T * 2000 + p.val) :
    k0_pay1 x0 x1 x2 (ix2 p q) = scaledProduct A0 A1 A2 (ix2 r q) := by
  rw [BodyValue.pay0_ix2, scaledProduct_ix2]
  refine Finset.sum_congr rfl fun k _ => ?_
  rw [h0 p k r hr, h1 p r hr, h2 k q]

/-- What point t writes back is block t of the scaled product of the arrays as the region finds them. -/
theorem flushed_eq (c : Dev nD) (t : Fin cfg0.N) :
    (dat0 V c).flushed 3 t = ((cfg0.win 3).blk t).view.read (Elt Ideal) (scaledProduct (V c main_arg0) (V c main_v11) (V c main_arg3)) := by
  show (cfg0.win 3).cut (grid0.coords t) ((dat0 V c).after 3 t) = _
  rw [after0_3]
  unfold out0_3
  rw [View.canon_unit_zero offset_zero]
  simp only [View.ld_unit_zero (S := S2000x512) offset_zero, View.ld_unit_zero (S := S2000x1) offset_zero, View.ld_unit_zero (S := S512x256) offset_zero]
  obtain ⟨e00, e01, e10, e11, e20, e21, e30, e31⟩ := block_positions t
  funext y
  obtain ⟨p, q, rfl⟩ : ∃ (p : Fin 2000) (q : Fin 256), y = ix2 p q := ⟨y 0, y 1, eq_ix2 y⟩
  have hlt : t.val < 25 := lt_of_lt_of_eq t.isLt N_0
  refine (point_value (iblk0 V c 0 t) (iblk0 V c 1 t) (iblk0 V c 2 t) (V c main_arg0) (V c main_v11) (V c main_arg3) t.val ?_ ?_ ?_ p q
    ⟨t.val * 2000 + p.val, by have := p.isLt; omega⟩ rfl).trans ?_
  · intro p k r hr
    show V c main_arg0 (((cfg0.win 0).blk t).view.emb (ix2 p k)) = V c main_arg0 (ix2 r k)
    refine congrArg (V c main_arg0) (funext fun a => Fin.ext ?_)
    match a with
    | ⟨0, _⟩ => show win0_0.index t (0 : Fin 2) * 2000 + 1 * p.val = r.val; omega
    | ⟨1, _⟩ => show win0_0.index t (1 : Fin 2) * 512 + 1 * k.val = k.val; omega
  · intro p r hr
    show V c main_v11 (((cfg0.win 1).blk t).view.emb (ix2 p (0 : Fin 1))) = V c main_v11 (ix2 r (0 : Fin 1))
    refine congrArg (V c main_v11) (funext fun a => Fin.ext ?_)
    match a with
    | ⟨0, _⟩ => show win0_1.index t (0 : Fin 2) * 2000 + 1 * p.val = r.val; omega
    | ⟨1, _⟩ => show win0_1.index t (1 : Fin 2) * 1 + 1 * 0 = 0; omega
  · intro k q
    show V c main_arg3 (((cfg0.win 2).blk t).view.emb (ix2 k q)) = V c main_arg3 (ix2 k q)
    refine congrArg (V c main_arg3) (funext fun a => Fin.ext ?_)
    match a with
    | ⟨0, _⟩ => show win0_2.index t (0 : Fin 2) * 512 + 1 * k.val = k.val; omega
    | ⟨1, _⟩ => show win0_2.index t (1 : Fin 2) * 256 + 1 * q.val = q.val; omega
  · show scaledProduct (V c main_arg0) (V c main_v11) (V c main_arg3) _ = scaledProduct (V c main_arg0) (V c main_v11) (V c main_arg3) (((cfg0.win 3).blk t).view.emb (ix2 p q))
    refine congrArg (scaledProduct (V c main_arg0) (V c main_v11) (V c main_arg3)) (funext fun a => Fin.ext ?_)
    match a with
    | ⟨0, _⟩ => show t.val * 2000 + p.val = win0_3.index t (0 : Fin 2) * 2000 + 1 * p.val; omega
    | ⟨1, _⟩ => show q.val = win0_3.index t (1 : Fin 2) * 256 + 1 * q.val; omega

/-- An index of the output array is in point t's block iff each coordinate is in the block's range on its axis. -/
theorem mem_blk (t : Fin cfg0.N) (i : S50000x256.Idx) :
    i ∈ ((cfg0.win 3).blk t).view.set ↔ ∀ a : Fin 2, win0_3.index t a * S2000x256.size a ≤ (i a).val ∧ (i a).val < win0_3.index t a * S2000x256.size a + S2000x256.size a := by
  show i ∈ ((View.whole main_v12).slice (win0_3.rect t)).set ↔ _
  rw [View.set_slice_whole, Rect.mem_set_unit]
  exact Iff.rfl

/-- Every row of the output lies in the block of the point numbered by its row divided by 2000. -/
theorem covered (i : S50000x256.Idx) : ∃ t : Fin cfg0.N, (cfg0.win 3).flush t = true ∧ i ∈ ((cfg0.win 3).blk t).view.set := by
  have hi0 : (i 0).val < 50000 := (i 0).isLt
  have hi1 : (i 1).val < 256 := (i 1).isLt
  have hN : grid0.N = 25 := N_0
  refine ⟨⟨(i 0).val / 2000, by show (i 0).val / 2000 < grid0.N; rw [hN]; omega⟩, flush0_3 _, ?_⟩
  rw [mem_blk]
  obtain ⟨-, -, -, -, -, -, e30, e31⟩ := block_positions ⟨(i 0).val / 2000, by show (i 0).val / 2000 < grid0.N; rw [hN]; omega⟩
  have e30' : win0_3.index ⟨(i 0).val / 2000, by show (i 0).val / 2000 < grid0.N; rw [hN]; omega⟩ (0 : Fin 2) = (i 0).val / 2000 := e30
  intro a
  match a with
  | ⟨0, _⟩ =>
    show win0_3.index _ (0 : Fin 2) * 2000 ≤ (i 0).val ∧ (i 0).val < win0_3.index _ (0 : Fin 2) * 2000 + 2000
    rw [e30']; omega
  | ⟨1, _⟩ =>
    show win0_3.index _ (1 : Fin 2) * 256 ≤ (i 1).val ∧ (i 1).val < win0_3.index _ (1 : Fin 2) * 256 + 256
    rw [e31]; omega

/-- The output array after the region: the scaled product of the three arrays as the region finds them. -/
theorem final (c : Dev nD) :
    (dat0 V c).arrAt 3 cfg0.N = scaledProduct (V c main_arg0) (V c main_v11) (V c main_arg3) :=
  (dat0 V c).arrAt_eq_of_cover 3 (scaledProduct (V c main_arg0) (V c main_v11) (V c main_arg3)) (fun t _ => flushed_eq V c t) (covered)

end Cert.KernelIdeal.Region0

end
-- ==== Proof.Region1.lean ====
/-
  The second kernel region, read as a value. The grid has 25 points; point t works on rows 2000 t .. 2000 t + 1999:
  it fetches that block of rows of the left array and of the scale column, the whole right array, and writes that block
  of rows of the output. So what point t writes back is block t of ONE function of the three arrays as the region finds
  them — the rows scaled by the column and multiplied by the right array — and since the 25 row blocks cover all 50000
  rows, the output array ends holding that function.
-/
import proofs.«168120_j55946243998129_1_alg».proof.Proof.Gen.KernelIdeal.Frame
import proofs.«168120_j55946243998129_1_alg».proof.Proof.BodyValue
import proofs.«168120_j55946243998129_1_alg».proof.Proof.ScaledProduct
import Idealize.ShloMosaic.Lib.Pipeline.Value

set_option maxRecDepth 16384

noncomputable section

open scoped BigOperators

namespace Cert.KernelIdeal.Region1

open Cert.KernelIdeal Cert.KernelIdeal.Gen Cert.GcnLayer
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem offset_zero : (![0, 0] : Fin 2 → Nat) = fun _ => 0 := funext fun a => by fin_cases a <;> rfl

/-- Where each window's block sits at point t: the two row-blocked inputs move with the output's block of rows, which
    is block t; every block starts at column 0; the right array is fetched whole. -/
theorem block_positions : ∀ t : Fin cfg1.N,
    win1_0.index t (0 : Fin 2) = win1_3.index t (0 : Fin 2) ∧ win1_0.index t (1 : Fin 2) = 0
    ∧ win1_1.index t (0 : Fin 2) = win1_3.index t (0 : Fin 2) ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- One point, over plain blocks: if the left block is rows T*2000.. of A0, the column block rows T*2000.. of A1, and the
    right block all of A2, then the body's value at y is the scaled product of the arrays at row T*2000 + y 0, column y 1. -/
theorem point_value (x0 : Vec Ideal S2000x256 .f32) (x1 : Vec Ideal S2000x1 .f32) (x2 : Vec Ideal S256x128 .f32)
    (A0 : S50000x256.Idx → EReal) (A1 : S50000x1.Idx → EReal) (A2 : S256x128.Idx → EReal) (T : ℕ)
    (h0 : ∀ (p : Fin 2000) (k : Fin 256) (r : Fin 50000), r.val = T * 2000 + p.val → x0 (ix2 p k) = A0 (ix2 r k))
    (h1 : ∀ (p : Fin 2000) (r : Fin 50000), r.val = T * 2000 + p.val → x1 (ix2 p (0 : Fin 1)) = A1 (ix2 r (0 : Fin 1)))
    (h2 : ∀ (k : Fin 256) (q : Fin 128), x2 (ix2 k q) = A2 (ix2 k q))
    (p : Fin 2000) (q : Fin 128) (r : Fin 50000) (hr : r.val = T * 2000 + p.val) :
    k1_pay1 x0 x1 x2 (ix2 p q) = scaledProduct A0 A1 A2 (ix2 r q) := by
  rw [BodyValue.pay1_ix2, scaledProduct_ix2]
  refine Finset.sum_congr rfl fun k _ => ?_
  rw [h0 p k r hr, h1 p r hr, h2 k q]

/-- What point t writes back is block t of the scaled product of the arrays as the region finds them. -/
theorem flushed_eq (c : Dev nD) (t : Fin cfg1.N) :
    (dat1 V c).flushed 3 t = ((cfg1.win 3).blk t).view.read (Elt Ideal) (scaledProduct (V c main_v29) (V c main_v41) (V c main_arg5)) := by
  show (cfg1.win 3).cut (grid1.coords t) ((dat1 V c).after 3 t) = _
  rw [after1_3]
  unfold out1_3
  rw [View.canon_unit_zero offset_zero]
  simp only [View.ld_unit_zero (S := S2000x256) offset_zero, View.ld_unit_zero (S := S2000x1) offset_zero, View.ld_unit_zero (S := S256x128) offset_zero]
  obtain ⟨e00, e01, e10, e11, e20, e21, e30, e31⟩ := block_positions t
  funext y
  obtain ⟨p, q, rfl⟩ : ∃ (p : Fin 2000) (q : Fin 128), y = ix2 p q := ⟨y 0, y 1, eq_ix2 y⟩
  have hlt : t.val < 25 := lt_of_lt_of_eq t.isLt N_1
  refine (point_value (iblk1 V c 0 t) (iblk1 V c 1 t) (iblk1 V c 2 t) (V c main_v29) (V c main_v41) (V c main_arg5) t.val ?_ ?_ ?_ p q
    ⟨t.val * 2000 + p.val, by have := p.isLt; omega⟩ rfl).trans ?_
  · intro p k r hr
    show V c main_v29 (((cfg1.win 0).blk t).view.emb (ix2 p k)) = V c main_v29 (ix2 r k)
    refine congrArg (V c main_v29) (funext fun a => Fin.ext ?_)
    match a with
    | ⟨0, _⟩ => show win1_0.index t (0 : Fin 2) * 2000 + 1 * p.val = r.val; omega
    | ⟨1, _⟩ => show win1_0.index t (1 : Fin 2) * 256 + 1 * k.val = k.val; omega
  · intro p r hr
    show V c main_v41 (((cfg1.win 1).blk t).view.emb (ix2 p (0 : Fin 1))) = V c main_v41 (ix2 r (0 : Fin 1))
    refine congrArg (V c main_v41) (funext fun a => Fin.ext ?_)
    match a with
    | ⟨0, _⟩ => show win1_1.index t (0 : Fin 2) * 2000 + 1 * p.val = r.val; omega
    | ⟨1, _⟩ => show win1_1.index t (1 : Fin 2) * 1 + 1 * 0 = 0; omega
  · intro k q
    show V c main_arg5 (((cfg1.win 2).blk t).view.emb (ix2 k q)) = V c main_arg5 (ix2 k q)
    refine congrArg (V c main_arg5) (funext fun a => Fin.ext ?_)
    match a with
    | ⟨0, _⟩ => show win1_2.index t (0 : Fin 2) * 256 + 1 * k.val = k.val; omega
    | ⟨1, _⟩ => show win1_2.index t (1 : Fin 2) * 128 + 1 * q.val = q.val; omega
  · show scaledProduct (V c main_v29) (V c main_v41) (V c main_arg5) _ = scaledProduct (V c main_v29) (V c main_v41) (V c main_arg5) (((cfg1.win 3).blk t).view.emb (ix2 p q))
    refine congrArg (scaledProduct (V c main_v29) (V c main_v41) (V c main_arg5)) (funext fun a => Fin.ext ?_)
    match a with
    | ⟨0, _⟩ => show t.val * 2000 + p.val = win1_3.index t (0 : Fin 2) * 2000 + 1 * p.val; omega
    | ⟨1, _⟩ => show q.val = win1_3.index t (1 : Fin 2) * 128 + 1 * q.val; omega

/-- An index of the output array is in point t's block iff each coordinate is in the block's range on its axis. -/
theorem mem_blk (t : Fin cfg1.N) (i : S50000x128.Idx) :
    i ∈ ((cfg1.win 3).blk t).view.set ↔ ∀ a : Fin 2, win1_3.index t a * S2000x128.size a ≤ (i a).val ∧ (i a).val < win1_3.index t a * S2000x128.size a + S2000x128.size a := by
  show i ∈ ((View.whole main_v42).slice (win1_3.rect t)).set ↔ _
  rw [View.set_slice_whole, Rect.mem_set_unit]
  exact Iff.rfl

/-- Every row of the output lies in the block of the point numbered by its row divided by 2000. -/
theorem covered (i : S50000x128.Idx) : ∃ t : Fin cfg1.N, (cfg1.win 3).flush t = true ∧ i ∈ ((cfg1.win 3).blk t).view.set := by
  have hi0 : (i 0).val < 50000 := (i 0).isLt
  have hi1 : (i 1).val < 128 := (i 1).isLt
  have hN : grid1.N = 25 := N_1
  refine ⟨⟨(i 0).val / 2000, by show (i 0).val / 2000 < grid1.N; rw [hN]; omega⟩, flush1_3 _, ?_⟩
  rw [mem_blk]
  obtain ⟨-, -, -, -, -, -, e30, e31⟩ := block_positions ⟨(i 0).val / 2000, by show (i 0).val / 2000 < grid1.N; rw [hN]; omega⟩
  have e30' : win1_3.index ⟨(i 0).val / 2000, by show (i 0).val / 2000 < grid1.N; rw [hN]; omega⟩ (0 : Fin 2) = (i 0).val / 2000 := e30
  intro a
  match a with
  | ⟨0, _⟩ =>
    show win1_3.index _ (0 : Fin 2) * 2000 ≤ (i 0).val ∧ (i 0).val < win1_3.index _ (0 : Fin 2) * 2000 + 2000
    rw [e30']; omega
  | ⟨1, _⟩ =>
    show win1_3.index _ (1 : Fin 2) * 128 ≤ (i 1).val ∧ (i 1).val < win1_3.index _ (1 : Fin 2) * 128 + 128
    rw [e31]; omega

/-- The output array after the region: the scaled product of the three arrays as the region finds them. -/
theorem final (c : Dev nD) :
    (dat1 V c).arrAt 3 cfg1.N = scaledProduct (V c main_v29) (V c main_v41) (V c main_arg5) :=
  (dat1 V c).arrAt_eq_of_cover 3 (scaledProduct (V c main_v29) (V c main_v41) (V c main_arg5)) (fun t _ => flushed_eq V c t) (covered)

end Cert.KernelIdeal.Region1

end
-- ==== Proof.HostValue.lean ====
/-
  The host side of the idealized kernel's program, one stretch at a time, as values. Between the launch and the first
  region the host computes each node's normalisation from the edge list; between the two regions it aggregates the
  first projection over the edges, adds the bias, rectifies, and computes the normalisations again; after the second
  region it aggregates the second projection. Each lemma reads one buffer after a stretch as a function of the buffers
  the stretch started from, whatever those held.
-/
import proofs.«168120_j55946243998129_1_alg».proof.Proof.Gen.KernelIdeal.Launch
import Idealize.ShloMosaic.Lib.StableHlo.Run

set_option maxRecDepth 8192

noncomputable section

namespace Cert.KernelIdeal.HostValue

open Cert.KernelIdeal Cert.KernelIdeal.Gen Idealize.ShloMosaic Idealize.ShloMosaic.TcCoe Idealize.SL.Sem Idealize.ShloMosaic.StableHlo

variable {F : FTy → Type} [FloatOps F]

/-- A node's normalisation from one end of the edge list: count the edges that name the node, take the larger of the
    count and one, and the reciprocal square root of that. -/
def degNorm (idx : (⟨S800000, .i32⟩ : BufTy).Contents (Elt F)) : (⟨S50000, .f32⟩ : BufTy).Contents (Elt F) :=
  Host.rsqrt (maximumf (broadcastInDim S50000 ![] bcast_S_S50000 (id (constant S_ .f32 0x3F800000#32))) (Host.scatterAdd scatter_S50000_S800000x1_S800000_n_0_0_1 (broadcastInDim S50000 ![] bcast_S_S50000 (constant S_ .f32 0x00000000#32)) (broadcastInDim S800000x1 ![0] bcast_S800000_S800000x1_0 idx) (broadcastInDim S800000 ![] bcast_S_S800000 (constant S_ .f32 0x3F800000#32))))

/-- One layer's aggregation over the edge list, at width 256: each edge gathers the row of `h` named by its source (a negative
    source index wraps round by 50000), the gathered rows are summed into the rows named by the edges' destinations, each
    row is scaled by its destination's normalisation and the bias is added to every row. -/
def aggregate256 (h : (⟨S50000x256, .f32⟩ : BufTy).Contents (Elt F)) (src dst : (⟨S800000, .i32⟩ : BufTy).Contents (Elt F))
    (nd : (⟨S50000, .f32⟩ : BufTy).Contents (Elt F)) (b : (⟨S256, .f32⟩ : BufTy).Contents (Elt F)) : (⟨S50000x256, .f32⟩ : BufTy).Contents (Elt F) :=
  addf (mulf (Host.scatterAdd scatter_S50000x256_S800000x1_S800000x256_1_0_0_1 (broadcastInDim S50000x256 ![] bcast_S_S50000x256 (constant S_ .f32 0x00000000#32)) (broadcastInDim S800000x1 ![0] bcast_S800000_S800000x1_0 dst) (Host.gather gather_S50000x256_S800000x1_S800000x256_1_0_n_n_0_1_1256 h (broadcastInDim S800000x1 ![0] bcast_S800000_S800000x1_0 (select (cmpi .slt src (broadcastInDim S800000 ![] bcast_S_S800000 (constantI S_ 32 0#32))) (addi src (broadcastInDim S800000 ![] bcast_S_S800000 (constantI S_ 32 50000#32))) src)))) (broadcastInDim S50000x256 ![0, 1] bcast_S50000x1_S50000x256_0_1 (broadcastInDim S50000x1 ![0] bcast_S50000_S50000x1_0 nd))) (broadcastInDim S50000x256 ![0, 1] bcast_S1x256_S50000x256_0_1 (broadcastInDim S1x256 ![1] bcast_S256_S1x256_1 b))

/-- One layer's aggregation over the edge list, at width 128: each edge gathers the row of `h` named by its source (a negative
    source index wraps round by 50000), the gathered rows are summed into the rows named by the edges' destinations, each
    row is scaled by its destination's normalisation and the bias is added to every row. -/
def aggregate128 (h : (⟨S50000x128, .f32⟩ : BufTy).Contents (Elt F)) (src dst : (⟨S800000, .i32⟩ : BufTy).Contents (Elt F))
    (nd : (⟨S50000, .f32⟩ : BufTy).Contents (Elt F)) (b : (⟨S128, .f32⟩ : BufTy).Contents (Elt F)) : (⟨S50000x128, .f32⟩ : BufTy).Contents (Elt F) :=
  addf (mulf (Host.scatterAdd scatter_S50000x128_S800000x1_S800000x128_1_0_0_1 (broadcastInDim S50000x128 ![] bcast_S_S50000x128 (constant S_ .f32 0x00000000#32)) (broadcastInDim S800000x1 ![0] bcast_S800000_S800000x1_0 dst) (Host.gather gather_S50000x128_S800000x1_S800000x128_1_0_n_n_0_1_1128 h (broadcastInDim S800000x1 ![0] bcast_S800000_S800000x1_0 (select (cmpi .slt src (broadcastInDim S800000 ![] bcast_S_S800000 (constantI S_ 32 0#32))) (addi src (broadcastInDim S800000 ![] bcast_S_S800000 (constantI S_ 32 50000#32))) src)))) (broadcastInDim S50000x128 ![0, 1] bcast_S50000x1_S50000x128_0_1 (broadcastInDim S50000x1 ![0] bcast_S50000_S50000x1_0 nd))) (broadcastInDim S50000x128 ![0, 1] bcast_S1x128_S50000x128_0_1 (broadcastInDim S1x128 ![1] bcast_S128_S1x128_1 b))

/-- The rectifier between the layers: the larger of each entry and zero. -/
def rectify (x : (⟨S50000x256, .f32⟩ : BufTy).Contents (Elt F)) : (⟨S50000x256, .f32⟩ : BufTy).Contents (Elt F) :=
  maximumf x (broadcastInDim S50000x256 ![] bcast_S_S50000x256 (constant S_ .f32 0x00000000#32))

/-! ## From the launch to the first region -/

/-- The scale column the first region reads: the source-side normalisation, recast as a column. -/
theorem pre_v11 (X : Valuation τ sig (Elt F)) : after hostOps0_4 (after hostOps0_3 (after hostOps0_2 (after hostOps0_1 (after hostOps0 X)))) (Proc.devRef .tc main_v11)
    = shapeCast S50000x1 (degNorm (X (Proc.devRef .tc main_arg1))) shapeCasts_S50000_S50000x1 := by
  dsimp only [hostOps0, hostOps0_1, hostOps0_2, hostOps0_3, hostOps0_4]
  after_results_simp <;> rfl

/-- The destination-side normalisation. -/
theorem pre_v10 (X : Valuation τ sig (Elt F)) : after hostOps0_4 (after hostOps0_3 (after hostOps0_2 (after hostOps0_1 (after hostOps0 X)))) (Proc.devRef .tc main_v10) = degNorm (X (Proc.devRef .tc main_arg2)) := by
  dsimp only [hostOps0, hostOps0_1, hostOps0_2, hostOps0_3, hostOps0_4]
  after_results_simp <;> rfl

theorem pre_arg0 (X : Valuation τ sig (Elt F)) : after hostOps0_4 (after hostOps0_3 (after hostOps0_2 (after hostOps0_1 (after hostOps0 X)))) (Proc.devRef .tc main_arg0) = X (Proc.devRef .tc main_arg0) := by
  dsimp only [hostOps0, hostOps0_1, hostOps0_2, hostOps0_3, hostOps0_4]
  after_results_simp <;> rfl

theorem pre_arg1 (X : Valuation τ sig (Elt F)) : after hostOps0_4 (after hostOps0_3 (after hostOps0_2 (after hostOps0_1 (after hostOps0 X)))) (Proc.devRef .tc main_arg1) = X (Proc.devRef .tc main_arg1) := by
  dsimp only [hostOps0, hostOps0_1, hostOps0_2, hostOps0_3, hostOps0_4]
  after_results_simp <;> rfl

theorem pre_arg2 (X : Valuation τ sig (Elt F)) : after hostOps0_4 (after hostOps0_3 (after hostOps0_2 (after hostOps0_1 (after hostOps0 X)))) (Proc.devRef .tc main_arg2) = X (Proc.devRef .tc main_arg2) := by
  dsimp only [hostOps0, hostOps0_1, hostOps0_2, hostOps0_3, hostOps0_4]
  after_results_simp <;> rfl

theorem pre_arg3 (X : Valuation τ sig (Elt F)) : after hostOps0_4 (after hostOps0_3 (after hostOps0_2 (after hostOps0_1 (after hostOps0 X)))) (Proc.devRef .tc main_arg3) = X (Proc.devRef .tc main_arg3) := by
  dsimp only [hostOps0, hostOps0_1, hostOps0_2, hostOps0_3, hostOps0_4]
  after_results_simp <;> rfl

theorem pre_arg4 (X : Valuation τ sig (Elt F)) : after hostOps0_4 (after hostOps0_3 (after hostOps0_2 (after hostOps0_1 (after hostOps0 X)))) (Proc.devRef .tc main_arg4) = X (Proc.devRef .tc main_arg4) := by
  dsimp only [hostOps0, hostOps0_1, hostOps0_2, hostOps0_3, hostOps0_4]
  after_results_simp <;> rfl

theorem pre_arg5 (X : Valuation τ sig (Elt F)) : after hostOps0_4 (after hostOps0_3 (after hostOps0_2 (after hostOps0_1 (after hostOps0 X)))) (Proc.devRef .tc main_arg5) = X (Proc.devRef .tc main_arg5) := by
  dsimp only [hostOps0, hostOps0_1, hostOps0_2, hostOps0_3, hostOps0_4]
  after_results_simp <;> rfl

theorem pre_arg6 (X : Valuation τ sig (Elt F)) : after hostOps0_4 (after hostOps0_3 (after hostOps0_2 (after hostOps0_1 (after hostOps0 X)))) (Proc.devRef .tc main_arg6) = X (Proc.devRef .tc main_arg6) := by
  dsimp only [hostOps0, hostOps0_1, hostOps0_2, hostOps0_3, hostOps0_4]
  after_results_simp <;> rfl

/-! ## From the first region to the second -/

/-- The left array the second region reads: the first projection aggregated, biased and rectified. -/
theorem mid_v29 (X : Valuation τ sig (Elt F)) : after hostOps1_6 (after hostOps1_5 (after hostOps1_4 (after hostOps1_3 (after hostOps1_2 (after hostOps1_1 (after hostOps1 X)))))) (Proc.devRef .tc main_v29)
    = rectify (aggregate256 (X (Proc.devRef .tc main_v12)) (X (Proc.devRef .tc main_arg1)) (X (Proc.devRef .tc main_arg2)) (X (Proc.devRef .tc main_v10)) (X (Proc.devRef .tc main_arg4))) := by
  dsimp only [hostOps1, hostOps1_1, hostOps1_2, hostOps1_3, hostOps1_4, hostOps1_5, hostOps1_6]
  after_results_simp <;> rfl

/-- The scale column the second region reads. -/
theorem mid_v41 (X : Valuation τ sig (Elt F)) : after hostOps1_6 (after hostOps1_5 (after hostOps1_4 (after hostOps1_3 (after hostOps1_2 (after hostOps1_1 (after hostOps1 X)))))) (Proc.devRef .tc main_v41)
    = shapeCast S50000x1 (degNorm (X (Proc.devRef .tc main_arg1))) shapeCasts_S50000_S50000x1 := by
  dsimp only [hostOps1, hostOps1_1, hostOps1_2, hostOps1_3, hostOps1_4, hostOps1_5, hostOps1_6]
  after_results_simp <;> rfl

/-- The destination-side normalisation, computed again. -/
theorem mid_v40 (X : Valuation τ sig (Elt F)) : after hostOps1_6 (after hostOps1_5 (after hostOps1_4 (after hostOps1_3 (after hostOps1_2 (after hostOps1_1 (after hostOps1 X)))))) (Proc.devRef .tc main_v40) = degNorm (X (Proc.devRef .tc main_arg2)) := by
  dsimp only [hostOps1, hostOps1_1, hostOps1_2, hostOps1_3, hostOps1_4, hostOps1_5, hostOps1_6]
  after_results_simp <;> rfl

theorem mid_arg1 (X : Valuation τ sig (Elt F)) : after hostOps1_6 (after hostOps1_5 (after hostOps1_4 (after hostOps1_3 (after hostOps1_2 (after hostOps1_1 (after hostOps1 X)))))) (Proc.devRef .tc main_arg1) = X (Proc.devRef .tc main_arg1) := by
  dsimp only [hostOps1, hostOps1_1, hostOps1_2, hostOps1_3, hostOps1_4, hostOps1_5, hostOps1_6]
  after_results_simp <;> rfl

theorem mid_arg2 (X : Valuation τ sig (Elt F)) : after hostOps1_6 (after hostOps1_5 (after hostOps1_4 (after hostOps1_3 (after hostOps1_2 (after hostOps1_1 (after hostOps1 X)))))) (Proc.devRef .tc main_arg2) = X (Proc.devRef .tc main_arg2) := by
  dsimp only [hostOps1, hostOps1_1, hostOps1_2, hostOps1_3, hostOps1_4, hostOps1_5, hostOps1_6]
  after_results_simp <;> rfl

theorem mid_arg5 (X : Valuation τ sig (Elt F)) : after hostOps1_6 (after hostOps1_5 (after hostOps1_4 (after hostOps1_3 (after hostOps1_2 (after hostOps1_1 (after hostOps1 X)))))) (Proc.devRef .tc main_arg5) = X (Proc.devRef .tc main_arg5) := by
  dsimp only [hostOps1, hostOps1_1, hostOps1_2, hostOps1_3, hostOps1_4, hostOps1_5, hostOps1_6]
  after_results_simp <;> rfl

theorem mid_arg6 (X : Valuation τ sig (Elt F)) : after hostOps1_6 (after hostOps1_5 (after hostOps1_4 (after hostOps1_3 (after hostOps1_2 (after hostOps1_1 (after hostOps1 X)))))) (Proc.devRef .tc main_arg6) = X (Proc.devRef .tc main_arg6) := by
  dsimp only [hostOps1, hostOps1_1, hostOps1_2, hostOps1_3, hostOps1_4, hostOps1_5, hostOps1_6]
  after_results_simp <;> rfl

/-! ## After the second region -/

/-- The program's result: the second projection aggregated and biased. -/
theorem post_v58 (X : Valuation τ sig (Elt F)) : after hostOps2 X (Proc.devRef .tc main_v58)
    = aggregate128 (X (Proc.devRef .tc main_v42)) (X (Proc.devRef .tc main_arg1)) (X (Proc.devRef .tc main_arg2)) (X (Proc.devRef .tc main_v40)) (X (Proc.devRef .tc main_arg6)) := by
  dsimp only [hostOps2]
  after_results_simp <;> rfl

end Cert.KernelIdeal.HostValue

end
-- ==== Proof.KernelValue.lean ====
/-
  The idealized kernel's result as one function of its seven arguments. The chain of segment valuations is read
  backwards from the result buffer: the last host stretch aggregates the second region's output; that output is the
  scaled product of what the second region found; what it found was computed by the host stretches between the regions
  from the first region's output and the arguments; and so on back to the launch memory.
-/
import proofs.«168120_j55946243998129_1_alg».proof.Proof.KernelRun
import proofs.«168120_j55946243998129_1_alg».proof.Proof.Region0
import proofs.«168120_j55946243998129_1_alg».proof.Proof.Region1
import proofs.«168120_j55946243998129_1_alg».proof.Proof.HostValue

noncomputable section

namespace Cert.KernelIdeal.WholeValue

open Cert.KernelIdeal Cert.KernelIdeal.Gen Cert.KernelIdeal.HostValue Cert.GcnLayer
open Idealize.ShloMosaic Idealize.ShloMosaic.TcCoe Idealize.SL.Sem

/-- The two-layer graph convolution: project the scaled features, aggregate over the edges and add the bias, rectify;
    project the scaled result, aggregate and add the second bias. -/
def gcn (a0 : (⟨S50000x512, .f32⟩ : BufTy).Contents (Elt Ideal)) (a1 a2 : (⟨S800000, .i32⟩ : BufTy).Contents (Elt Ideal))
    (a3 : (⟨S512x256, .f32⟩ : BufTy).Contents (Elt Ideal)) (a4 : (⟨S256, .f32⟩ : BufTy).Contents (Elt Ideal))
    (a5 : (⟨S256x128, .f32⟩ : BufTy).Contents (Elt Ideal)) (a6 : (⟨S128, .f32⟩ : BufTy).Contents (Elt Ideal)) :
    (⟨S50000x128, .f32⟩ : BufTy).Contents (Elt Ideal) :=
  aggregate128 (scaledProduct (rectify (aggregate256 (scaledProduct a0 (shapeCast S50000x1 (degNorm a1) shapeCasts_S50000_S50000x1) a3) a1 a2 (degNorm a2) a4))
    (shapeCast S50000x1 (degNorm a1) shapeCasts_S50000_S50000x1) a5) a1 a2 (degNorm a2) a6

variable (m : (ℓ : Loc nD τ sig) → Buf (Elt Ideal) ℓ) (ρ : Dev nD → PrngReg)

/-- The first region's output array, with its three operands given by name. -/
theorem region0_out (c : Dev nD) (A0 : S50000x512.Idx → EReal) (A1 : S50000x1.Idx → EReal) (A2 : S512x256.Idx → EReal)
    (h0 : W5 m ρ c (Proc.devRef .tc main_arg0) = A0) (h1 : W5 m ρ c (Proc.devRef .tc main_v11) = A1) (h2 : W5 m ρ c (Proc.devRef .tc main_arg3) = A2) :
    W6 m ρ c (Proc.devRef .tc main_v12) = scaledProduct A0 A1 A2 := by
  subst h0 h1 h2
  exact (W6_arr m ρ c 3).trans (Region0.final (V5 m ρ) c)

/-- The second region's output array, with its three operands given by name. -/
theorem region1_out (c : Dev nD) (A0 : S50000x256.Idx → EReal) (A1 : S50000x1.Idx → EReal) (A2 : S256x128.Idx → EReal)
    (h0 : W13 m ρ c (Proc.devRef .tc main_v29) = A0) (h1 : W13 m ρ c (Proc.devRef .tc main_v41) = A1) (h2 : W13 m ρ c (Proc.devRef .tc main_arg5) = A2) :
    W14 m ρ c (Proc.devRef .tc main_v42) = scaledProduct A0 A1 A2 := by
  subst h0 h1 h2
  exact (W14_arr m ρ c 3).trans (Region1.final (V13 m ρ) c)

/-- The result buffer after the last segment is the graph convolution of the launch memory's arguments. -/
theorem result_value (c : Dev nD) :
    W15 m ρ c (Proc.devRef .tc main_v58) = gcn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  -- at the first region's entry
  have p0 : W5 m ρ c (Proc.devRef .tc main_arg0) = (m ((c : Thread nD τ).loc main_arg0)) := pre_arg0 (W0 m ρ c)
  have p1 : W5 m ρ c (Proc.devRef .tc main_arg1) = (m ((c : Thread nD τ).loc main_arg1)) := pre_arg1 (W0 m ρ c)
  have p2 : W5 m ρ c (Proc.devRef .tc main_arg2) = (m ((c : Thread nD τ).loc main_arg2)) := pre_arg2 (W0 m ρ c)
  have p3 : W5 m ρ c (Proc.devRef .tc main_arg3) = (m ((c : Thread nD τ).loc main_arg3)) := pre_arg3 (W0 m ρ c)
  have p4 : W5 m ρ c (Proc.devRef .tc main_arg4) = (m ((c : Thread nD τ).loc main_arg4)) := pre_arg4 (W0 m ρ c)
  have p5 : W5 m ρ c (Proc.devRef .tc main_arg5) = (m ((c : Thread nD τ).loc main_arg5)) := pre_arg5 (W0 m ρ c)
  have p6 : W5 m ρ c (Proc.devRef .tc main_arg6) = (m ((c : Thread nD τ).loc main_arg6)) := pre_arg6 (W0 m ρ c)
  have p11 : W5 m ρ c (Proc.devRef .tc main_v11) = shapeCast S50000x1 (degNorm (m ((c : Thread nD τ).loc main_arg1))) shapeCasts_S50000_S50000x1 := pre_v11 (W0 m ρ c)
  have p10 : W5 m ρ c (Proc.devRef .tc main_v10) = degNorm (m ((c : Thread nD τ).loc main_arg2)) := pre_v10 (W0 m ρ c)
  -- at the first region's exit
  have q12 := region0_out m ρ c _ _ _ p0 p11 p3
  have q1 : W6 m ρ c (Proc.devRef .tc main_arg1) = (m ((c : Thread nD τ).loc main_arg1)) := (W6_of_ne m ρ c main_arg1 (by decide)).trans p1
  have q2 : W6 m ρ c (Proc.devRef .tc main_arg2) = (m ((c : Thread nD τ).loc main_arg2)) := (W6_of_ne m ρ c main_arg2 (by decide)).trans p2
  have q4 : W6 m ρ c (Proc.devRef .tc main_arg4) = (m ((c : Thread nD τ).loc main_arg4)) := (W6_of_ne m ρ c main_arg4 (by decide)).trans p4
  have q5 : W6 m ρ c (Proc.devRef .tc main_arg5) = (m ((c : Thread nD τ).loc main_arg5)) := (W6_of_ne m ρ c main_arg5 (by decide)).trans p5
  have q6 : W6 m ρ c (Proc.devRef .tc main_arg6) = (m ((c : Thread nD τ).loc main_arg6)) := (W6_of_ne m ρ c main_arg6 (by decide)).trans p6
  have q10 : W6 m ρ c (Proc.devRef .tc main_v10) = degNorm (m ((c : Thread nD τ).loc main_arg2)) := (W6_of_ne m ρ c main_v10 (by decide)).trans p10
  -- at the second region's entry
  have r29 : W13 m ρ c (Proc.devRef .tc main_v29) = rectify (aggregate256 (scaledProduct (m ((c : Thread nD τ).loc main_arg0)) (shapeCast S50000x1 (degNorm (m ((c : Thread nD τ).loc main_arg1))) shapeCasts_S50000_S50000x1) (m ((c : Thread nD τ).loc main_arg3))) (m ((c : Thread nD τ).loc main_arg1)) (m ((c : Thread nD τ).loc main_arg2)) (degNorm (m ((c : Thread nD τ).loc main_arg2))) (m ((c : Thread nD τ).loc main_arg4))) :=
    (mid_v29 (W6 m ρ c)).trans (by rw [q12, q1, q2, q10, q4])
  have r41 : W13 m ρ c (Proc.devRef .tc main_v41) = shapeCast S50000x1 (degNorm (m ((c : Thread nD τ).loc main_arg1))) shapeCasts_S50000_S50000x1 :=
    (mid_v41 (W6 m ρ c)).trans (by rw [q1])
  have r40 : W13 m ρ c (Proc.devRef .tc main_v40) = degNorm (m ((c : Thread nD τ).loc main_arg2)) := (mid_v40 (W6 m ρ c)).trans (by rw [q2])
  have r1 : W13 m ρ c (Proc.devRef .tc main_arg1) = (m ((c : Thread nD τ).loc main_arg1)) := (mid_arg1 (W6 m ρ c)).trans q1
  have r2 : W13 m ρ c (Proc.devRef .tc main_arg2) = (m ((c : Thread nD τ).loc main_arg2)) := (mid_arg2 (W6 m ρ c)).trans q2
  have r5 : W13 m ρ c (Proc.devRef .tc main_arg5) = (m ((c : Thread nD τ).loc main_arg5)) := (mid_arg5 (W6 m ρ c)).trans q5
  have r6 : W13 m ρ c (Proc.devRef .tc main_arg6) = (m ((c : Thread nD τ).loc main_arg6)) := (mid_arg6 (W6 m ρ c)).trans q6
  -- at the second region's exit
  have s42 := region1_out m ρ c _ _ _ r29 r41 r5
  have s1 : W14 m ρ c (Proc.devRef .tc main_arg1) = (m ((c : Thread nD τ).loc main_arg1)) := (W14_of_ne m ρ c main_arg1 (by decide)).trans r1
  have s2 : W14 m ρ c (Proc.devRef .tc main_arg2) = (m ((c : Thread nD τ).loc main_arg2)) := (W14_of_ne m ρ c main_arg2 (by decide)).trans r2
  have s6 : W14 m ρ c (Proc.devRef .tc main_arg6) = (m ((c : Thread nD τ).loc main_arg6)) := (W14_of_ne m ρ c main_arg6 (by decide)).trans r6
  have s40 : W14 m ρ c (Proc.devRef .tc main_v40) = degNorm (m ((c : Thread nD τ).loc main_arg2)) := (W14_of_ne m ρ c main_v40 (by decide)).trans r40
  -- after the last stretch
  exact (post_v58 (W14 m ρ c)).trans (by rw [s42, s1, s2, s40, s6]; rfl)

end Cert.KernelIdeal.WholeValue

end
-- ==== Proof.Bridge.lean ====
/-
  The reference's result is the same function of the arguments as the kernel's. The reference writes each layer's
  projection as a dot_general of the features times the broadcast normalisation; that is the scaled product whose column
  is the normalisation recast as a column. Everything around the two projections — the normalisations, the two
  aggregations over the edge list, the biases, the rectifier — is the same chain of host operations in both programs,
  and is carried along unopened.
-/
import proofs.«168120_j55946243998129_1_alg».proof.Proof.Gen.ReferenceIdeal.Read
import proofs.«168120_j55946243998129_1_alg».proof.Proof.KernelValue

noncomputable section

namespace Cert.ReferenceIdeal.RefValue

open Cert.ReferenceIdeal Cert.ReferenceIdeal.Gen Cert.GcnLayer
open Idealize.ShloMosaic Idealize.ShloMosaic.TcCoe Idealize.ShloMosaic.ValueIdx Idealize.SL.Sem

/-- The first layer's dot_general is a plain 50000 x 512 by 512 x 256 product. -/
theorem plainDot1 : PlainDot dot_S50000x512_S512x256_S50000x256_1_0_0_1_n_n :=
  ⟨rfl, rfl, Read.lhs_main_v14_0, Read.lhs_main_v14_1, Read.rhs_main_v14_0, Read.rhs_main_v14_1⟩

/-- The second layer's dot_general is a plain 50000 x 256 by 256 x 128 product. -/
theorem plainDot2 : PlainDot dot_S50000x256_S256x128_S50000x128_1_0_0_1_n_n :=
  ⟨rfl, rfl, Read.lhs_main_v46_0, Read.lhs_main_v46_1, Read.rhs_main_v46_0, Read.rhs_main_v46_1⟩

/-- The reference's result term is the graph convolution of its arguments. -/
theorem result_eq (m : (ℓ : Loc nD τ sig) → Buf (Elt Ideal) ℓ) (c : Dev nD) :
    Value.res_main_v62 (F := Ideal) m c
      = Cert.KernelIdeal.WholeValue.gcn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  unfold Cert.KernelIdeal.WholeValue.gcn
  rw [← hostDot_eq_scaledProduct plainDot1 bcast_S50000_S50000x1_0 bcast_S50000x1_S50000x512_0_1,
    ← hostDot_eq_scaledProduct plainDot2 bcast_S50000_S50000x1_0 bcast_S50000x1_S50000x256_0_1]
  rfl

end Cert.ReferenceIdeal.RefValue

end
-- ==== Proof.lean ====
/-
  A two-layer graph convolution on 50000 nodes and 800000 edges: the kernel against its reference, over the extended reals.

  Both programs compute, per layer, out = D_in^(-1/2) A D_out^(-1/2) x W + b, with a rectifier between the layers. They
  share every host operation: the degree counts by a scatter-add of ones, the normalisations as reciprocal square roots
  of the counts clipped below at one, the aggregation as a gather by source followed by a scatter-add by destination,
  the scaling by the destination normalisation and the bias. They differ only in the dense projection (x scaled by the
  source normalisation) W. The reference multiplies x by the broadcast normalisation and calls dot_general on the whole
  50000-row array. The kernel runs a grid of 25 points, each taking 2000 rows: it scales the rows by their block of the
  normalisation column, rounds both operands to a narrower format and multiplies them on the matrix unit into zeros.

  At the extended reals a change of format is the identity and both products are the sum over k of
  (x (r,k) * n r) * W (k,c), with the factors in the same order, so the two sides agree term by term: no law of
  arithmetic beyond that is used, and the finiteness of the inputs is never opened. The 25 row blocks cover the array, so
  each region's output array is that one function of the arrays the region finds; reading the chain of host stretches
  and regions back from the result buffer gives the kernel's result as the same composite function of the seven
  arguments that the reference's run ends at.

  The idealized kernel is the kernel's own text read at the extended reals, no operation rewritten, so the conjunct
  relating the two is trivial. The three frames are the generated frame runs, and for the reference its generated run
  with the result dropped.
-/
import proofs.«168120_j55946243998129_1_alg».proof.Defs
import proofs.«168120_j55946243998129_1_alg».proof.Proof.Gen.Kernel
import proofs.«168120_j55946243998129_1_alg».proof.Proof.Gen.Kernel.Skeleton
import proofs.«168120_j55946243998129_1_alg».proof.Proof.Gen.Kernel.Launch
import proofs.«168120_j55946243998129_1_alg».proof.Proof.Gen.Kernel.Points
import proofs.«168120_j55946243998129_1_alg».proof.Proof.Gen.Kernel.Frame
import proofs.«168120_j55946243998129_1_alg».proof.Proof.Gen.KernelIdeal
import proofs.«168120_j55946243998129_1_alg».proof.Proof.Gen.KernelIdeal.Skeleton
import proofs.«168120_j55946243998129_1_alg».proof.Proof.Gen.KernelIdeal.Launch
import proofs.«168120_j55946243998129_1_alg».proof.Proof.Gen.KernelIdeal.Points
import proofs.«168120_j55946243998129_1_alg».proof.Proof.Gen.KernelIdeal.Frame
import proofs.«168120_j55946243998129_1_alg».proof.Proof.Gen.ReferenceIdeal
import proofs.«168120_j55946243998129_1_alg».proof.Proof.Gen.Pre_finite_inputs
import proofs.«168120_j55946243998129_1_alg».proof.Proof.Gen.ReferenceIdeal.Run
import proofs.«168120_j55946243998129_1_alg».proof.Proof.Gen.ReferenceIdeal.Read
import proofs.«168120_j55946243998129_1_alg».proof.Proof.KernelRun
import proofs.«168120_j55946243998129_1_alg».proof.Proof.KernelValue
import proofs.«168120_j55946243998129_1_alg».proof.Proof.Bridge
import Idealize.ShloMosaic.Adequacy
import Idealize.ShloMosaic.Init

noncomputable section

namespace Cert.Proof

open Idealize.ShloMosaic Idealize.ShloMosaic.TcCoe Idealize.SL.Sem

/-- The kernel as printed runs to the end without a fault and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the idealized reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten between the kernel and its idealized form. -/
theorem preserves : Cert.preserves_Kernel_KernelIdeal := trivial

/-- Both idealized programs end with the graph convolution of the arguments in their result buffers. -/
theorem algebraic : Cert.algebraic_KernelIdeal_ReferenceIdeal := by
  intro m ρ m' ρ' _ hagree
  refine ⟨fun c => Cert.KernelIdeal.WholeValue.gcn (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · refine (θ_run Cert.KernelIdeal.defs _ _).mono (fun r h c => ⟨?_, ?_, ?_, ?_, ?_, ?_, ?_, ?_⟩) (Cert.KernelIdeal.RunValue.run_all m ρ)
    · exact (h c _ (Cert.KernelIdeal.Gen.mem_uc Cert.KernelIdeal.main_v58 (by decide))).trans (Cert.KernelIdeal.WholeValue.result_value m ρ c)
    · exact (h c _ (Cert.KernelIdeal.Gen.mem_uc Cert.KernelIdeal.main_arg0 (by decide))).trans (Cert.KernelIdeal.Gen.W15_main_arg0 m ρ c)
    · exact (h c _ (Cert.KernelIdeal.Gen.mem_uc Cert.KernelIdeal.main_arg1 (by decide))).trans (Cert.KernelIdeal.Gen.W15_main_arg1 m ρ c)
    · exact (h c _ (Cert.KernelIdeal.Gen.mem_uc Cert.KernelIdeal.main_arg2 (by decide))).trans (Cert.KernelIdeal.Gen.W15_main_arg2 m ρ c)
    · exact (h c _ (Cert.KernelIdeal.Gen.mem_uc Cert.KernelIdeal.main_arg3 (by decide))).trans (Cert.KernelIdeal.Gen.W15_main_arg3 m ρ c)
    · exact (h c _ (Cert.KernelIdeal.Gen.mem_uc Cert.KernelIdeal.main_arg4 (by decide))).trans (Cert.KernelIdeal.Gen.W15_main_arg4 m ρ c)
    · exact (h c _ (Cert.KernelIdeal.Gen.mem_uc Cert.KernelIdeal.main_arg5 (by decide))).trans (Cert.KernelIdeal.Gen.W15_main_arg5 m ρ c)
    · exact (h c _ (Cert.KernelIdeal.Gen.mem_uc Cert.KernelIdeal.main_arg6 (by decide))).trans (Cert.KernelIdeal.Gen.W15_main_arg6 m ρ c)
  · refine (θ_run Cert.ReferenceIdeal.defs _ _).mono (fun _ h c => ⟨(h c).1.trans ?_, (h c).2⟩)
      (Cert.ReferenceIdeal.Value.run (F := Ideal) m' ρ')
    rw [Cert.ReferenceIdeal.RefValue.result_eq, (hagree c).1, (hagree c).2.1, (hagree c).2.2.1, (hagree c).2.2.2.1,
      (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
